-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x64 : Shape := ⟨2, ![8192, 64]⟩
abbrev S8192x64x64 : Shape := ⟨3, ![8192, 64, 64]⟩
abbrev S64x64 : Shape := ⟨2, ![64, 64]⟩
abbrev S64 : Shape := ⟨1, ![64]⟩
abbrev S64x1 : Shape := ⟨2, ![64, 1]⟩
abbrev S_ : Shape := ⟨0, ![]⟩

class Facts : Prop where
  bcast_S_S8192x64 : S_.BroadcastsInDim S8192x64 (![] : Fin 0 → Fin S8192x64.rank)
  reducesTo_S8192x64_S_d0_1 : S8192x64.ReducesTo [0, 1] S_
  h_S_ : 0 < S_.numel
  bcast_S_S8192x64x64 : S_.BroadcastsInDim S8192x64x64 (![] : Fin 0 → Fin S8192x64x64.rank)
  reducesTo_S8192x64x64_S_d0_1_2 : S8192x64x64.ReducesTo [0, 1, 2] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_

variable [Facts]

def fn_part1 {F : FTy → Type} [FloatOps F] (main_arg4 : FVec F S64x64 .f32) (main_arg5 : FVec F S64 .f32) (main_arg6 : FVec F S64x1 .f32) (main_v13 : IVec S_ 1) (main_v16 : IVec S8192x64 1) : IVec S_ 1 :=
  let main_c_5 : IVec S_ 1 := constantI S_ 1 1#1
  let main_v17 : IVec S_ 1 := (fun x v => Host.reduce IntOp.andi x v reducesTo_S8192x64_S_d0_1 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x1 .f32 := Host.absf main_arg6
  let main_cst_10 : FVec F S_ .f32 := constant S_ .f32 0x7F800000#32
  let main_v30 : FVec F S64x1 .f32 := broadcastInDim S64x1 ![] bcast_S_S64x1 main_cst_10
  let main_v31 : IVec S64x1 1 := cmpf .olt main_v29 main_v30
  let main_c_11 : IVec S_ 1 := constantI S_ 1 1#1
  let main_v32 : IVec S_ 1 := (fun x v => Host.reduce IntOp.andi x v reducesTo_S64x1_S_d0_1 h_S_) main_v31 main_c_11
  let main_v33 : IVec S_ 1 := andi main_v28 main_v32
  main_v33

def fn {F : FTy → Type} [FloatOps F] (main_arg0 : FVec F S8192x64 .f32) (main_arg1 : FVec F S8192x64x64 .f32) (main_arg2 : FVec F S8192x64x64 .f32) (main_arg3 : FVec F S8192x64 .f32) (main_arg4 : FVec F S64x64 .f32) (main_arg5 : FVec F S64 .f32) (main_arg6 : FVec F S64x1 .f32) : IVec S_ 1 :=
  let main_v0 : FVec F S8192x64 .f32 := Host.absf main_arg0
  let main_cst : FVec F S_ .f32 := constant S_ .f32 0x7F800000#32
  let main_v1 : FVec F S8192x64 .f32 := broadcastInDim S8192x64 ![] bcast_S_S8192x64 main_cst
  let main_v2 : IVec S8192x64 1 := cmpf .olt main_v0 main_v1
  let main_c : IVec S_ 1 := constantI S_ 1 1#1
  let main_v3 : IVec S_ 1 := (fun x v => Host.reduce IntOp.andi x v reducesTo_S8192x64_S_d0_1 h_S_) main_v2 main_c
  let main_v4 : FVec F S8192x64x64 .f32 := Host.absf main_arg1
  let main_cst_0 : FVec F S_ .f32 := constant S_ .f32 0x7F800000#32
  let main_v5 : FVec F S8192x64x64 .f32 := broadcastInDim S8192x64x64 ![] bcast_S_S8192x64x64 main_cst_0
  let main_v6 : IVec S8192x64x64 1 := cmpf .olt main_v4 main_v5
  let main_c_1 : IVec S_ 1 := constantI S_ 1 1#1
  let main_v7 : IVec S_ 1 := (fun x v => Host.reduce IntOp.andi x v reducesTo_S8192x64x64_S_d0_1_2 h_S_) main_v6 main_c_1
  let main_v8 : IVec S_ 1 := andi main_v3 main_v7
  let main_v9 : FVec F S8192x64x64 .f32 := Host.absf main_arg2
  let main_cst_2 : FVec F S_ .f32 := constant S_ .f32 0x7F800000#32
  let main_v10 : FVec F S8192x64x64 .f32 := broadcastInDim S8192x64x64 ![] bcast_S_S8192x64x64 main_cst_2
  let main_v11 : IVec S8192x64x64 1 := cmpf .olt main_v9 main_v10
  let main_c_3 : IVec S_ 1 := constantI S_ 1 1#1
  let main_v12 : IVec S_ 1 := (fun x v => Host.reduce IntOp.andi x v reducesTo_S8192x64x64_S_d0_1_2 h_S_) main_v11 main_c_3
  let main_v13 : IVec S_ 1 := andi main_v8 main_v12
  let main_v14 : FVec F S8192x64 .f32 := Host.absf main_arg3
  let main_cst_4 : FVec F S_ .f32 := constant S_ .f32 0x7F800000#32
  let main_v15 : FVec F S8192x64 .f32 := broadcastInDim S8192x64 ![] bcast_S_S8192x64 main_cst_4
  let main_v16 : IVec S8192x64 1 := cmpf .olt main_v14 main_v15
  fn_part1 (F := F) main_arg4 main_arg5 main_arg6 main_v13 main_v16
-- ==== Kernel.lean ====
abbrev S8192x64 : Shape := ⟨2, ![8192, 64]⟩
abbrev S8192x64x64 : Shape := ⟨3, ![8192, 64, 64]⟩
abbrev S64x64 : Shape := ⟨2, ![64, 64]⟩
abbrev S64 : Shape := ⟨1, ![64]⟩
abbrev S64x1 : Shape := ⟨2, ![64, 1]⟩
abbrev S1x64 : Shape := ⟨2, ![1, 64]⟩
abbrev S256x64 : Shape := ⟨2, ![256, 64]⟩
abbrev S256x64x64 : Shape := ⟨3, ![256, 64, 64]⟩
abbrev S64x64x64 : Shape := ⟨3, ![64, 64, 64]⟩
abbrev S4096x64 : Shape := ⟨2, ![4096, 64]⟩
abbrev S4096 : Shape := ⟨1, ![4096]⟩
abbrev S4096x1 : Shape := ⟨2, ![4096, 1]⟩
abbrev S64x64x1 : Shape := ⟨3, ![64, 64, 1]⟩

abbrev nBuf : Space → Nat
  | .hbm => 12
  | .vmem => 13
  | .smem => 0
  | _ => 0

abbrev bufTy : (tb : Table) → Fin (tcTables nBuf tb) → BufTy
  | .hbm, ⟨0, _⟩ => ⟨S8192x64, .f32⟩
  | .hbm, ⟨1, _⟩ => ⟨S8192x64x64, .f32⟩
  | .hbm, ⟨2, _⟩ => ⟨S8192x64x64, .f32⟩
  | .hbm, ⟨3, _⟩ => ⟨S8192x64, .f32⟩
  | .hbm, ⟨4, _⟩ => ⟨S64x64, .f32⟩
  | .hbm, ⟨5, _⟩ => ⟨S64, .f32⟩
  | .hbm, ⟨6, _⟩ => ⟨S64x1, .f32⟩
  | .hbm, ⟨7, _⟩ => ⟨S64x64, .f32⟩
  | .hbm, ⟨8, _⟩ => ⟨S64x64, .bf16⟩
  | .hbm, ⟨9, _⟩ => ⟨S1x64, .f32⟩
  | .hbm, ⟨10, _⟩ => ⟨S1x64, .f32⟩
  | .hbm, ⟨11, _⟩ => ⟨S8192x64, .f32⟩
  | .local _ .vmem, ⟨0, _⟩ => ⟨S256x64, .f32⟩
  | .local _ .vmem, ⟨1, _⟩ => ⟨S256x64, .f32⟩
  | .local _ .vmem, ⟨2, _⟩ => ⟨S256x64x64, .f32⟩
  | .local _ .vmem, ⟨3, _⟩ => ⟨S256x64x64, .f32⟩
  | .local _ .vmem, ⟨4, _⟩ => ⟨S256x64x64, .f32⟩
  | .local _ .vmem, ⟨5, _⟩ => ⟨S256x64x64, .f32⟩
  | .local _ .vmem, ⟨6, _⟩ => ⟨S256x64, .f32⟩
  | .local _ .vmem, ⟨7, _⟩ => ⟨S256x64, .f32⟩
  | .local _ .vmem, ⟨8, _⟩ => ⟨S64x64, .bf16⟩
  | .local _ .vmem, ⟨9, _⟩ => ⟨S1x64, .f32⟩
  | .local _ .vmem, ⟨10, _⟩ => ⟨S1x64, .f32⟩
  | .local _ .vmem, ⟨11, _⟩ => ⟨S256x64, .f32⟩
  | .local _ .vmem, ⟨12, _⟩ => ⟨S256x64, .f32⟩
  | _, _ => ⟨S8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c4_i32 : BitVec 32 := 4#32
  let v6 : BitVec 32 := Scalar.addi c0_i32 c4_i32
  let c1_i32 : BitVec 32 := 1#32
  ⟨c0_i32, v6, c1_i32⟩
def k0_mult1 (k0_t1 : Fin k0_t1_loop.trips) : BitVec 32 :=
  let c0_i32 : BitVec 32 := 0#32
  let c1_i32 : BitVec 32 := 1#32
  let arg9 : BitVec 32 := Scf.iv c0_i32 c1_i32 k0_t1
  let c64_i32 : BitVec 32 := 64#32
  let v7 : BitVec 32 := Scalar.muli arg9 c64_i32
  v7
def k0_off1 (k0_t1 : Fin k0_t1_loop.trips) : Fin 3 → Nat :=
  let c0_i32 : BitVec 32 := 0#32
  let c1_i32 : BitVec 32 := 1#32
  let arg9 : BitVec 32 := Scf.iv c0_i32 c1_i32 k0_t1
  let c64_i32 : BitVec 32 := 64#32
  let v7 : BitVec 32 := Scalar.muli arg9 c64_i32
  let v8 : BitVec 32 := v7
  let v9 : Index := Scalar.indexCast v8
  let c0_6 : Index := 0#32
  let c0_7 : Index := 0#32
  ![v9.toNat, 0, 0]
def k0_off2 (k0_t1 : Fin k0_t1_loop.trips) : Fin 2 → Nat :=
  let c0_i32 : BitVec 32 := 0#32
  let c1_i32 : BitVec 32 := 1#32
  let arg9 : BitVec 32 := Scf.iv c0_i32 c1_i32 k0_t1
  let c64_i32 : BitVec 32 := 64#32
  let v7 : BitVec 32 := Scalar.muli arg9 c64_i32
  let v8 : BitVec 32 := v7
  let v13 : Index := Scalar.indexCast v8
  let c0_10 : Index := 0#32
  ![v13.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x64x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x64x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S64x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  transposes_S64x64_S64x64_1_0 : S64x64.Transposes [1, 0] S64x64
  bitsLt_bf16_f32 : FTy.bits .bf16 < FTy.bits .f32
  shapeCasts_S64_S1x64 : S64.ShapeCasts S1x64
  shapeCasts_S64x1_S1x64 : S64x1.ShapeCasts S1x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  h_S64x64x64 : 0 < S64x64x64.numel
  shapeCasts_S64x64x64_S4096x64 : S64x64x64.ShapeCasts S4096x64
  broadcasts_S1x64_S4096x64 : S1x64.Broadcasts S4096x64
  reduces_S4096x64_S4096 : S4096x64.Reduces [1] S4096
  shapeCasts_S4096_S4096x1 : S4096.ShapeCasts S4096x1
  shapeCasts_S4096x1_S64x64 : S4096x1.ShapeCasts S64x64
  reduces_S64x64_S64 : S64x64.Reduces [1] S64
  shapeCasts_S64_S64x1 : S64.ShapeCasts S64x1
  broadcasts_S64x1_S64x64 : S64x1.Broadcasts S64x64
  shapeCasts_S64x64_S64x64x1 : S64x64.ShapeCasts S64x64x1
  broadcasts_S64x64x1_S64x64x64 : S64x64x1.Broadcasts S64x64x64
  reduces_S64x64x64_S64x64 : S64x64x64.Reduces [1] S64x64
  dot_S4096x64_S64x64_S4096x64_1_0_0_1_n_n_wf : DotDims.WF S4096x64 S64x64 S4096x64 [1] [0] [0] [1] [] []
  hrank0 : 0 < grid0.rank
  k0_t1_ok : k0_t1_loop.OK
  k0_mult1_dvd : ∀ k0_t1 : Fin k0_t1_loop.trips, 64 ∣ (k0_mult1 k0_t1).toNat
  k0_off1_inb : ∀ k0_t1 : Fin k0_t1_loop.trips, ∀ a, (k0_off1 k0_t1) a + S64x64x64.size a ≤ S256x64x64.size a
  k0_off2_inb : ∀ k0_t1 : Fin k0_t1_loop.trips, ∀ a, (k0_off2 k0_t1) a + S64x64.size a ≤ S256x64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x64.size a ≤ S8192x64.size a
  hwx0_0 : ∀ i : grid0.Coords, EltTy.bits .f32 = 32 ∨ (Rect.block (s := S8192x64) S256x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x64x64.size a ≤ S8192x64x64.size a
  hwx0_1 : ∀ i : grid0.Coords, EltTy.bits .f32 = 32 ∨ (Rect.block (s := S8192x64x64) S256x64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x64x64.size a ≤ S8192x64x64.size a
  hwx0_2 : ∀ i : grid0.Coords, EltTy.bits .f32 = 32 ∨ (Rect.block (s := S8192x64x64) S256x64x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x64.size a ≤ S8192x64.size a
  hwx0_3 : ∀ i : grid0.Coords, EltTy.bits .f32 = 32 ∨ (Rect.block (s := S8192x64) S256x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .bf16 = 32 ∨ (Rect.block (s := S64x64) S64x64.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x64.size a ≤ S8192x64.size a
  hwx0_7 : ∀ i : grid0.Coords, EltTy.bits .f32 = 32 ∨ (Rect.block (s := S8192x64) S256x64.size (cc0_transform_7 i) (hinb0_7 i)).WholeWords (EltTy.packing .f32)

variable [Facts₀]

def dot_S4096x64_S64x64_S4096x64_1_0_0_1_n_n : DotDims S4096x64 S64x64 S4096x64 where
  lhsContracting := [1]
  rhsContracting := [0]
  lhsNonContracting := [0]
  rhsNonContracting := [1]
  lhsBatch := []
  rhsBatch := []
  wf := dot_S4096x64_S64x64_S4096x64_1_0_0_1_n_n_wf

abbrev win0_0 : Pipeline.Window sig grid0 :=
  Pipeline.Window.ofSpec (Memref.whole main_arg0) S256x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x64x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x64x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S256x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8192x64 : Shape := ⟨2, ![8192, 64]⟩
abbrev S8192x64x64 : Shape := ⟨3, ![8192, 64, 64]⟩
abbrev S64x64 : Shape := ⟨2, ![64, 64]⟩
abbrev S64 : Shape := ⟨1, ![64]⟩
abbrev S64x1 : Shape := ⟨2, ![64, 1]⟩
abbrev S1x1x64 : Shape := ⟨3, ![1, 1, 64]⟩
abbrev S_ : Shape := ⟨0, ![]⟩
abbrev S8192x64x1 : Shape := ⟨3, ![8192, 64, 1]⟩
abbrev S8192x1 : Shape := ⟨2, ![8192, 1]⟩
abbrev S8192x1x1 : Shape := ⟨3, ![8192, 1, 1]⟩

abbrev nBuf : Space → Nat
  | .hbm => 29
  | .vmem => 0
  | .smem => 0
  | _ => 0

abbrev bufTy : (tb : Table) → Fin (tcTables nBuf tb) → BufTy
  | .hbm, ⟨0, _⟩ => ⟨S8192x64, .f32⟩
  | .hbm, ⟨1, _⟩ => ⟨S8192x64x64, .f32⟩
  | .hbm, ⟨2, _⟩ => ⟨S8192x64x64, .f32⟩
  | .hbm, ⟨3, _⟩ => ⟨S8192x64, .f32⟩
  | .hbm, ⟨4, _⟩ => ⟨S64x64, .f32⟩
  | .hbm, ⟨5, _⟩ => ⟨S64, .f32⟩
  | .hbm, ⟨6, _⟩ => ⟨S64x1, .f32⟩
  | .hbm, ⟨7, _⟩ => ⟨S8192x64x64, .f32⟩
  | .hbm, ⟨8, _⟩ => ⟨S8192x64x64, .f32⟩
  | .hbm, ⟨9, _⟩ => ⟨S1x1x64, .f32⟩
  | .hbm, ⟨10, _⟩ => ⟨S8192x64x64, .f32⟩
  | .hbm, ⟨11, _⟩ => ⟨S8192x64x64, .f32⟩
  | .hbm, ⟨12, _⟩ => ⟨S_, .f32⟩
  | .hbm, ⟨13, _⟩ => ⟨S8192x64x64, .f32⟩
  | .hbm, ⟨14, _⟩ => ⟨S8192x64x64, .f32⟩
  | .hbm, ⟨15, _⟩ => ⟨S8192x64x1, .f32⟩
  | .hbm, ⟨16, _⟩ => ⟨S8192x64x1, .f32⟩
  | .hbm, ⟨17, _⟩ => ⟨S8192x64x1, .f32⟩
  | .hbm, ⟨18, _⟩ => ⟨S8192x64x1, .f32⟩
  | .hbm, ⟨19, _⟩ => ⟨S_, .f32⟩
  | .hbm, ⟨20, _⟩ => ⟨S8192x1, .f32⟩
  | .hbm, ⟨21, _⟩ => ⟨S8192x1x1, .f32⟩
  | .hbm, ⟨22, _⟩ => ⟨S8192x64x1, .f32⟩
  | .hbm, ⟨23, _⟩ => ⟨S8192x64x1, .f32⟩
  | .hbm, ⟨24, _⟩ => ⟨S8192x64x64, .f32⟩
  | .hbm, ⟨25, _⟩ => ⟨S8192x64x64, .f32⟩
  | .hbm, ⟨26, _⟩ => ⟨S_, .f32⟩
  | .hbm, ⟨27, _⟩ => ⟨S8192x64, .f32⟩
  | .hbm, ⟨28, _⟩ => ⟨S8192x64, .f32⟩
  | _, _ => ⟨S8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call0_cst : Ref sig .tc := ⟨.hbm, 12, rfl⟩
abbrev main_call0_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_0 : Ref sig .tc := ⟨.hbm, 26, rfl⟩
abbrev main_v16 : Ref sig .tc := ⟨.hbm, 27, rfl⟩
abbrev main_v17 : Ref sig .tc := ⟨.hbm, 28, rfl⟩

abbrev nD : Nat := 1
abbrev τ : Topo := Topo.v7x

variable {F : FTy → Type} [FloatOps F]

class Facts₀ : Prop where
  bcast_S64_S1x1x64_2 : S64.BroadcastsInDim S1x1x64 (![2] : Fin 1 → Fin S1x1x64.rank)
  bcast_S1x1x64_S8192x64x64_0_1_2 : S1x1x64.BroadcastsInDim S8192x64x64 (![0, 1, 2] : Fin 3 → Fin S8192x64x64.rank)
  bcast_S_S8192x64x64 : S_.BroadcastsInDim S8192x64x64 (![] : Fin 0 → Fin S8192x64x64.rank)
  bcast_S8192x64_S8192x64x1_0_1 : S8192x64.BroadcastsInDim S8192x64x1 (![0, 1] : Fin 2 → Fin S8192x64x1.rank)
  reducesTo_S8192x64x1_S8192x1_d1 : S8192x64x1.ReducesTo [1] S8192x1
  h_S_ : 0 < S_.numel
  bcast_S8192x1_S8192x1x1_0_2 : S8192x1.BroadcastsInDim S8192x1x1 (![0, 2] : Fin 2 → Fin S8192x1x1.rank)
  bcast_S8192x1x1_S8192x64x1_0_1_2 : S8192x1x1.BroadcastsInDim S8192x64x1 (![0, 1, 2] : Fin 3 → Fin S8192x64x1.rank)
  bcast_S8192x64x1_S8192x64x64_0_1_2 : S8192x64x1.BroadcastsInDim S8192x64x64 (![0, 1, 2] : Fin 3 → Fin S8192x64x64.rank)
  reducesTo_S8192x64x64_S8192x64_d1 : S8192x64x64.ReducesTo [1] S8192x64
  dot_S8192x64x64_S64x64_S8192x64x64_2_1_01_0_n_n_wf : DotDims.WF S8192x64x64 S64x64 S8192x64x64 [2] [1] [0, 1] [0] [] []
  dot_S8192x64x64_S64x1_S8192x64x1_2_0_01_1_n_n_wf : DotDims.WF S8192x64x64 S64x1 S8192x64x1 [2] [0] [0, 1] [1] [] []

variable [Facts₀]

def dot_S8192x64x64_S64x64_S8192x64x64_2_1_01_0_n_n : DotDims S8192x64x64 S64x64 S8192x64x64 where
  lhsContracting := [2]
  rhsContracting := [1]
  lhsNonContracting := [0, 1]
  rhsNonContracting := [0]
  lhsBatch := []
  rhsBatch := []
  wf := dot_S8192x64x64_S64x64_S8192x64x64_2_1_01_0_n_n_wf
def dot_S8192x64x64_S64x1_S8192x64x1_2_0_01_1_n_n : DotDims S8192x64x64 S64x1 S8192x64x1 where
  lhsContracting := [2]
  rhsContracting := [0]
  lhsNonContracting := [0, 1]
  rhsNonContracting := [1]
  lhsBatch := []
  rhsBatch := []
  wf := dot_S8192x64x64_S64x1_S8192x64x1_2_0_01_1_n_n_wf

class Facts : Prop extends Facts₀ where

variable [Facts]
-- ==== Proof.RowAttention.lean ====
/-
  Attention over the neighbours of one row.

  A row has 64 neighbours. Neighbour m carries two feature vectors r m and t m of 64 entries each and a mask
  value. Its hidden unit u is the rectified affine image of the entrywise product of the two vectors,
      hidden m u = max (sum over k of r m k * t m k * W u k, plus bias u) 0,
  its unnormalised weight is the mask value times the exponential of the hidden units' combination with h,
      weight m = mask m * exp (sum over u of hidden m u * h u),
  and the row's result at feature i is its own item plus the normalised-weight average of the neighbours' t,
      rowOut i = item i + sum over m of (weight m / sum over n of weight n) * t m i.
  Everything is over the extended reals, with the operations as the ideal float values have them (the quotient
  is the ideal division, with its conventions at zero and at the infinities); the word of the rectifier's zero is kept
  as a word, the same on both sides of every equation it meets.
-/
import Idealize.ShloMosaic.PureOps.Ideal

noncomputable section

namespace Cert.RowAttention

open Idealize.ShloMosaic

/-- Hidden unit u of neighbour m: the rectified affine image of the entrywise product of r m and t m. -/
def hiddenUnit (r t W : Fin 64 → Fin 64 → EReal) (bias : Fin 64 → EReal) (m u : Fin 64) : EReal :=
  max ((∑ k : Fin 64, r m k * t m k * W u k) + bias u) (Ideal.ofBits .f32 0x00000000#32)

/-- The unnormalised weight of neighbour m: its mask value times the exponential of its hidden units combined with h. -/
def weight (r t W : Fin 64 → Fin 64 → EReal) (bias hv mask : Fin 64 → EReal) (m : Fin 64) : EReal :=
  mask m * Ideal.exp (∑ u : Fin 64, hiddenUnit r t W bias m u * hv u)

/-- The row's result at feature i: its item plus the neighbours' t averaged with the normalised weights. -/
def rowOut (item mask : Fin 64 → EReal) (r t W : Fin 64 → Fin 64 → EReal) (bias hv : Fin 64 → EReal) (i : Fin 64) : EReal :=
  item i + ∑ m : Fin 64, Ideal.div (weight r t W bias hv mask m) (∑ n : Fin 64, weight r t W bias hv mask n) * t m i

end Cert.RowAttention

end
-- ==== Proof.LibRows.lean ====
/-
  Rows of a matrix that are pairs (a, b): general lemmas, for any element type and any extents.

  An A x B x C array with its first two axes merged is a matrix of A*B rows and C columns whose row a*B + b is the
  array's (a, b) line. A column of A*B entries cut into A rows of B entries has the column's entry a*B + b at (a, b).
  A column of A entries repeated B times along a second axis has entry a at every (a, b). Each is read at coordinates:
  the row-major position is the same on both sides.
-/
import Idealize.ShloMosaic.Lib.Pipeline.Value
import Idealize.ShloMosaic.Lib.ValueIdx

noncomputable section

namespace Cert.LibRows

open Idealize.ShloMosaic Idealize.ShloMosaic.ValueIdx

variable {α : Type}

/-- An A x B x C array with its first two axes merged into N = A*B rows reads, at row n = a*B + b and column c,
    the array at (a, b, c). -/
theorem shapeCast_abc_nc_apply {A B C N : ℕ} (v : (⟨3, ![A, B, C]⟩ : Shape).Idx → α)
    (h : (⟨3, ![A, B, C]⟩ : Shape).ShapeCasts ⟨2, ![N, C]⟩) (a : Fin A) (b : Fin B) (c : Fin C) (n : Fin N)
    (hn : n.val = a.val * B + b.val) :
    shapeCast ⟨2, ![N, C]⟩ v h (ix2 n c) = v (ix3 a b c) :=
  shapeCast_apply v h _ _ (by
    rw [Shape.rowMajor_val_three, Shape.rowMajor_val_two]
    show (a.val * B + b.val) * C + c.val = n.val * C + c.val
    rw [hn])

/-- A column of N = A*B entries cut into A rows of B entries reads, at (a, b), the column's entry n = a*B + b. -/
theorem shapeCast_n1_ab_apply {A B N : ℕ} (v : (⟨2, ![N, 1]⟩ : Shape).Idx → α)
    (h : (⟨2, ![N, 1]⟩ : Shape).ShapeCasts ⟨2, ![A, B]⟩) (a : Fin A) (b : Fin B) (n : Fin N)
    (hn : n.val = a.val * B + b.val) :
    shapeCast ⟨2, ![A, B]⟩ v h (ix2 a b) = v (ix2 n (0 : Fin 1)) :=
  shapeCast_apply v h _ _ (by
    rw [Shape.rowMajor_val_two, Shape.rowMajor_val_two]
    show n.val * 1 + 0 = a.val * B + b.val
    omega)

/-- A column of A entries repeated B times along a second axis reads, at (a, b), the column's entry a. -/
theorem broadcastTo_a1_ab_apply {A B : ℕ} (v : (⟨2, ![A, 1]⟩ : Shape).Idx → α)
    (h : (⟨2, ![A, 1]⟩ : Shape).Broadcasts ⟨2, ![A, B]⟩) (a : Fin A) (b : Fin B) :
    broadcastTo ⟨2, ![A, B]⟩ v h (ix2 a b) = v (ix2 a (0 : Fin 1)) := by
  refine broadcastTo_apply v h (ix2 a b) (ix2 a (0 : Fin 1)) fun ax => ?_
  match ax with
  | ⟨0, _⟩ =>
    show a.val = if A = 1 then 0 else a.val
    split
    · have := a.isLt; omega
    · rfl
  | ⟨1, _⟩ =>
    show (0 : ℕ) = if (1 : ℕ) = 1 then 0 else b.val
    rw [if_pos rfl]

end Cert.LibRows

end
-- ==== Proof.LibColumns.lean ====
/-
  Columns of a two-dimensional array, read at an index given by its coordinates.

  A vector of R entries and the R×1 column with the same entries are the same data in row-major order:
  entry r of the vector is entry (r, 0) of the column, whichever way the reshape goes. Three R×1 columns
  joined side by side give an R×3 array whose entry (r, k) is entry (r, 0) of column k. The three facts
  hold for any element type and any number of rows R.
-/
import Idealize.ShloMosaic.Lib.Pipeline.Value
import Idealize.ShloMosaic.Lib.ValueIdx

noncomputable section

namespace Cert.Lib.Columns

open Idealize.ShloMosaic Idealize.ShloMosaic.ValueIdx

variable {α : Type} {R : Nat}

/-- A vector of R entries reshaped into an R×1 column: the column's entry (r, 0) is the vector's entry r
    (row-major position r·1 + 0 = r on both sides). -/
theorem column_of_vector_apply (v : (⟨1, ![R]⟩ : Shape).Idx → α)
    (h : (⟨1, ![R]⟩ : Shape).ShapeCasts ⟨2, ![R, 1]⟩) (r : Fin R) (z : Fin 1) :
    shapeCast ⟨2, ![R, 1]⟩ v h (ix2 r z) = v (ix1 r) :=
  shapeCast_apply v h (ix2 r z) (ix1 r) (by
    rw [Shape.rowMajor_val_one, Shape.rowMajor_val_two]
    have hz : z.val < 1 := z.isLt
    show r.val = r.val * 1 + z.val
    omega)

/-- An R×1 column reshaped into a vector of R entries: the vector's entry r is the column's entry (r, 0). -/
theorem vector_of_column_apply (w : (⟨2, ![R, 1]⟩ : Shape).Idx → α)
    (h : (⟨2, ![R, 1]⟩ : Shape).ShapeCasts ⟨1, ![R]⟩) (r : Fin R) :
    shapeCast ⟨1, ![R]⟩ w h (ix1 r) = w (ix2 r 0) :=
  shapeCast_apply w h (ix1 r) (ix2 r 0) (by
    rw [Shape.rowMajor_val_two, Shape.rowMajor_val_one]
    show r.val * 1 + 0 = r.val
    omega)

/-- Three R×1 columns joined side by side along the second axis: entry (r, k) of the R×3 result is
    entry (r, 0) of column k, because every column is one entry wide, so the second coordinate of the
    result is the number of the column. -/
theorem join3_apply (f : Fin 3 → ((⟨2, ![R, 1]⟩ : Shape).Idx → α))
    (h : Shape.Concatenates [(⟨2, ![R, 1]⟩ : Shape), ⟨2, ![R, 1]⟩, ⟨2, ![R, 1]⟩] ⟨2, ![R, 3]⟩ 1)
    (r : Fin R) (k : Fin 3) :
    concatenate ⟨2, ![R, 3]⟩ 1 [⟨⟨2, ![R, 1]⟩, f 0⟩, ⟨⟨2, ![R, 1]⟩, f 1⟩, ⟨⟨2, ![R, 1]⟩, f 2⟩] h (ix2 r k)
      = f k (ix2 r 0) := by
  show concatenate ⟨2, ![R, 3]⟩ 1
      (List.ofFn fun n : Fin 3 => (⟨⟨2, ![R, 1]⟩, f n⟩ : (s : Shape) × (s.Idx → α))) _ (ix2 r k) = _
  exact concatenate_ofFn_unit_apply (t := ⟨2, ![R, 3]⟩) (s₁ := ⟨2, ![R, 1]⟩) (1 : Fin 2) f _ rfl rfl
    (ix2 r k) k rfl (ix2 r 0)
    (fun b hb => by match b with | ⟨0, _⟩ => rfl | ⟨1, _⟩ => exact absurd rfl hb)

end Cert.Lib.Columns

end
-- ==== Proof.LibGroupScale.lean ====
/-
  One scale per run of 32 consecutive columns, spread over the columns: general lemmas, for any element type and any
  number of rows R.

  A matrix `s` of R rows and 128 columns is given a trailing axis of extent one, repeated 32 times along it, and the
  last two axes are merged: the result has R rows and 4096 columns, and its entry at row r, column k is
  `s` at row r, column k / 32. Each step is read at coordinates here, and then the chain.
-/
import Idealize.ShloMosaic.Lib.Pipeline.Value
import Idealize.ShloMosaic.Lib.ValueIdx

namespace Cert.LibGroupScale

open Idealize.ShloMosaic Idealize.ShloMosaic.ValueIdx

variable {α : Type}

/-- A matrix of R rows and G columns cast to R × G × 1 reads, at (r, g, u), the matrix at (r, g). -/
theorem shapeCast_ab_ab1_apply {R G : ℕ} (s : (⟨2, ![R, G]⟩ : Shape).Idx → α)
    (h : (⟨2, ![R, G]⟩ : Shape).ShapeCasts ⟨3, ![R, G, 1]⟩) (r : Fin R) (g : Fin G) (u : Fin 1) :
    shapeCast ⟨3, ![R, G, 1]⟩ s h (ix3 r g u) = s (ix2 r g) :=
  shapeCast_apply s h _ _ (by
    have hu : u.val = 0 := by omega
    rw [Shape.rowMajor_val_two, Shape.rowMajor_val_three]
    show r.val * G + g.val = (r.val * G + g.val) * 1 + u.val
    rw [hu, Nat.mul_one, Nat.add_zero])

/-- An R × G × 1 array repeated B times along its last axis reads, at (r, g, e), the array at (r, g, 0). -/
theorem broadcastTo_ab1_abc_apply {R G B : ℕ} (v : (⟨3, ![R, G, 1]⟩ : Shape).Idx → α)
    (h : (⟨3, ![R, G, 1]⟩ : Shape).Broadcasts ⟨3, ![R, G, B]⟩) (r : Fin R) (g : Fin G) (e : Fin B) :
    broadcastTo ⟨3, ![R, G, B]⟩ v h (ix3 r g e) = v (ix3 r g (0 : Fin 1)) := by
  refine broadcastTo_apply v h (ix3 r g e) (ix3 r g (0 : Fin 1)) fun ax => ?_
  match ax with
  | ⟨0, _⟩ =>
    show r.val = if R = 1 then 0 else r.val
    split
    · have := r.isLt; omega
    · rfl
  | ⟨1, _⟩ =>
    show g.val = if G = 1 then 0 else g.val
    split
    · have := g.isLt; omega
    · rfl
  | ⟨2, _⟩ =>
    show (0 : ℕ) = if (1 : ℕ) = 1 then 0 else e.val
    rw [if_pos rfl]

/-- An R × 128 × 32 array with its last two axes merged reads, at row r and column k, the array at
    (r, k / 32, k % 32). -/
theorem shapeCast_merge_128_32_apply {R : ℕ} (v : (⟨3, ![R, 128, 32]⟩ : Shape).Idx → α)
    (h : (⟨3, ![R, 128, 32]⟩ : Shape).ShapeCasts ⟨2, ![R, 4096]⟩) (r : Fin R) (k : Fin 4096) :
    shapeCast ⟨2, ![R, 4096]⟩ v h (ix2 r k)
      = v (ix3 r (⟨k.val / 32, by have := k.isLt; omega⟩ : Fin 128) (⟨k.val % 32, by omega⟩ : Fin 32)) :=
  shapeCast_apply v h _ _ (by
    rw [Shape.rowMajor_val_three, Shape.rowMajor_val_two]
    show (r.val * 128 + k.val / 32) * 32 + k.val % 32 = r.val * 4096 + k.val
    omega)

/-- THE CHAIN: a matrix `s` of R rows and 128 columns, given a unit axis, repeated 32 times along it and flattened to
    R rows and 4096 columns, reads at row r, column k the entry of `s` at row r, column k / 32. -/
theorem spread32_apply {R : ℕ} (s : (⟨2, ![R, 128]⟩ : Shape).Idx → α)
    (h1 : (⟨2, ![R, 128]⟩ : Shape).ShapeCasts ⟨3, ![R, 128, 1]⟩)
    (h2 : (⟨3, ![R, 128, 1]⟩ : Shape).ShapeCasts ⟨3, ![R, 128, 1]⟩)
    (h3 : (⟨3, ![R, 128, 1]⟩ : Shape).Broadcasts ⟨3, ![R, 128, 32]⟩)
    (h4 : (⟨3, ![R, 128, 32]⟩ : Shape).ShapeCasts ⟨2, ![R, 4096]⟩) (r : Fin R) (k : Fin 4096) :
    shapeCast ⟨2, ![R, 4096]⟩ (broadcastTo ⟨3, ![R, 128, 32]⟩
        (shapeCast ⟨3, ![R, 128, 1]⟩ (shapeCast ⟨3, ![R, 128, 1]⟩ s h1) h2) h3) h4 (ix2 r k)
      = s (ix2 r (⟨k.val / 32, by have := k.isLt; omega⟩ : Fin 128)) := by
  rw [shapeCast_merge_128_32_apply, broadcastTo_ab1_abc_apply, shapeCast_self, shapeCast_ab_ab1_apply]

end Cert.LibGroupScale
-- ==== Proof.ChunkPayload.lean ====
/-
  What the kernel's body stores for one chunk of 64 rows, read at an entry.

  The body loads a chunk of 64 rows of r, t (64 x 64 x 64), of the mask and of item (64 x 64), and the resident
  transposed weight, bias and h. The products r * t of the chunk are laid out as 4096 rows (row a * 64 + m is neighbour m
  of chunk row a) and multiplied into the weight; bias is added, the result rectified, multiplied by h and summed along
  the hidden axis; the 4096 sums go through the exponential, are cut back into 64 rows of 64 neighbours, multiplied by the
  mask, divided by their row sums, spread along the feature axis, multiplied by t and summed over the neighbours; item is
  added. Each stage is named here, the stored value is shown to be their composition, and each stage is read at
  coordinates: entry (a, i) of the stored value is the row attention of chunk row a at feature i.
-/
import proofs.«159820_j21457656611238_2_alg».proof.Proof.Gen.KernelIdeal.Skeleton
import proofs.«159820_j21457656611238_2_alg».proof.Proof.RowAttention
import proofs.«159820_j21457656611238_2_alg».proof.Proof.LibRows
import proofs.«159820_j21457656611238_2_alg».proof.Proof.LibColumns
import proofs.«159820_j21457656611238_2_alg».proof.Proof.LibGroupScale
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Chunk

open Cert.KernelIdeal Cert.KernelIdeal.Gen Idealize.ShloMosaic Idealize.ShloMosaic.ValueIdx Cert.RowAttention

/-- The matrix product's shape record: 4096 x 64 times 64 x 64, contracted over the shared axis. -/
abbrev DD : DotDims S4096x64 S64x64 S4096x64 := dot_S4096x64_S64x64_S4096x64_1_0_0_1_n_n

/-- Row a * 64 + m of the 4096: neighbour m of chunk row a. -/
def row (a m : Fin 64) : Fin 4096 := ⟨a.val * 64 + m.val, by have := a.isLt; have := m.isLt; omega⟩

theorem row_val (a m : Fin 64) : (row a m).val = a.val * 64 + m.val := rfl

/-! ## The matrix product at an entry -/

theorem lhs0 (i : S4096x64.Idx) (q : DD.contr.Idx) : (DD.lhsIdx i q 0).val = (i 0).val := by
  unfold DotDims.lhsIdx
  rw [dif_neg (show ¬(0 : Fin S4096x64.rank) ∈ DD.lhsBatch by decide), dif_pos (show (0 : Fin S4096x64.rank) ∈ DD.lhsNonContracting by decide)]
  rfl
theorem lhs1 (i : S4096x64.Idx) (q : DD.contr.Idx) : (DD.lhsIdx i q 1).val = (q ⟨0, by decide⟩).val :=
  DD.lhsIdx_val_of_single rfl i q
theorem rhs0 (i : S4096x64.Idx) (q : DD.contr.Idx) : (DD.rhsIdx i q 0).val = (q ⟨0, by decide⟩).val :=
  DD.rhsIdx_val_of_single rfl i q
theorem rhs1 (i : S4096x64.Idx) (q : DD.contr.Idx) : (DD.rhsIdx i q 1).val = (i 1).val := by
  unfold DotDims.rhsIdx
  rw [dif_neg (show ¬(1 : Fin S64x64.rank) ∈ DD.rhsBatch by decide), dif_pos (show (1 : Fin S64x64.rank) ∈ DD.rhsNonContracting by decide)]
  rfl

/-- The product into a zero accumulator at (n, u): the sum over k of the left factor at (n, k) times the right at (k, u). -/
theorem matmul_rows_apply (lhs : FVec Ideal S4096x64 .bf16) (w : FVec Ideal S64x64 .bf16) (n : Fin 4096) (u : Fin 64) :
    matmul DD none lhs w (constant (F := Ideal) S4096x64 .f32 0x00000000#32) (ix2 n u)
      = ∑ k : Fin 64, lhs (ix2 n k) * w (ix2 k u) := by
  simp only [matmul]
  rw [Ideal.matmul_constant_zero_apply, ← Equiv.sum_comp (ValueIdx.contrEquiv1 DD 64 rfl rfl).symm]
  refine Finset.sum_congr rfl fun k _ => ?_
  have hk := ValueIdx.contrEquiv1_symm_val DD 64 rfl rfl k
  have el : DD.lhsIdx (ix2 n u) ((ValueIdx.contrEquiv1 DD 64 rfl rfl).symm k) = ix2 n k := funext fun a => Fin.ext (by
    match a with
    | ⟨0, _⟩ => exact lhs0 _ _
    | ⟨1, _⟩ => exact (lhs1 _ _).trans hk)
  have er : DD.rhsIdx (ix2 n u) ((ValueIdx.contrEquiv1 DD 64 rfl rfl).symm k) = ix2 k u := funext fun a => Fin.ext (by
    match a with
    | ⟨0, _⟩ => exact (rhs0 _ _).trans hk
    | ⟨1, _⟩ => exact rhs1 _ _)
  rw [el, er]

/-! ## The stages -/

variable (v0 : FVec Ideal S64x64 .bf16) (v2 v4 : FVec Ideal S1x64 .f32) (v10 v12 : FVec Ideal S64x64x64 .f32)
  (v14 v16 : FVec Ideal S64x64 .f32)

/-- The entrywise products r * t of the chunk, as 4096 rows of 64. -/
def prods : FVec Ideal S4096x64 .bf16 :=
  shapeCast S4096x64 (truncf .bf16 (mulf v10 v12) bitsLt_bf16_f32) shapeCasts_S64x64x64_S4096x64

/-- The rectified hidden units of the 4096 rows. -/
def hid : FVec Ideal S4096x64 .f32 :=
  maximumf (addf (matmul DD none (prods v10 v12) (shapeCast S64x64 v0 shapeCasts_S64x64_S64x64) (constant S4096x64 .f32 0x00000000#32))
      (broadcastTo S4096x64 (shapeCast S1x64 v2 shapeCasts_S1x64_S1x64) broadcasts_S1x64_S4096x64))
    (broadcast S4096x64 (Scalar.ofBits .f32 0x00000000#32))

/-- The hidden units combined with h, one number per row of the 4096. -/
def logit : FVec Ideal S4096 .f32 :=
  multiReduction .add [1] S4096 (mulf (hid v0 v2 v10 v12) (broadcastTo S4096x64 (shapeCast S1x64 v4 shapeCasts_S1x64_S1x64) broadcasts_S1x64_S4096x64))
    0x00000000#32 reduces_S4096x64_S4096 (.inl rfl) rfl

/-- The masked exponentials: the unnormalised weights, 64 rows of 64 neighbours. -/
def wts : FVec Ideal S64x64 .f32 :=
  mulf v14 (shapeCast S64x64 (exp (shapeCast S4096x1 (logit v0 v2 v4 v10 v12) shapeCasts_S4096_S4096x1)) shapeCasts_S4096x1_S64x64)

/-- The weights divided by their row sums. -/
def nrm : FVec Ideal S64x64 .f32 :=
  divf (wts v0 v2 v4 v10 v12 v14)
    (broadcastTo S64x64 (shapeCast S64x1 (multiReduction .add [1] S64 (wts v0 v2 v4 v10 v12 v14) 0x00000000#32 reduces_S64x64_S64 (.inl rfl) rfl)
      shapeCasts_S64_S64x1) broadcasts_S64x1_S64x64)

/-- The stored value is item plus the neighbours' t summed with the normalised weights: the stages composed. -/
theorem pay_eq : k0_pay1 (F := Ideal) v0 v2 v4 v10 v12 v14 v16
    = addf v16 (multiReduction .add [1] S64x64
        (mulf (broadcastTo S64x64x64 (shapeCast S64x64x1 (nrm v0 v2 v4 v10 v12 v14) shapeCasts_S64x64_S64x64x1) broadcasts_S64x64x1_S64x64x64) v12)
        0x00000000#32 reduces_S64x64x64_S64x64 (.inl rfl) rfl) := rfl

/-! ## The stages at coordinates -/

/-- The row's data as the row attention takes it: chunk row a of r, t, the mask; the weight with its axes exchanged. -/
abbrev rr (a : Fin 64) : Fin 64 → Fin 64 → EReal := fun m k => v10 (ix3 a m k)
abbrev tt (a : Fin 64) : Fin 64 → Fin 64 → EReal := fun m k => v12 (ix3 a m k)
abbrev ww : Fin 64 → Fin 64 → EReal := fun u k => v0 (ix2 k u)
abbrev bb : Fin 64 → EReal := fun u => v2 (ix2 (0 : Fin 1) u)
abbrev hh : Fin 64 → EReal := fun u => v4 (ix2 (0 : Fin 1) u)
abbrev mm (a : Fin 64) : Fin 64 → EReal := fun m => v14 (ix2 a m)

theorem prods_apply (a m k : Fin 64) : prods v10 v12 (ix2 (row a m) k) = v10 (ix3 a m k) * v12 (ix3 a m k) :=
  Cert.LibRows.shapeCast_abc_nc_apply _ _ a m k (row a m) (row_val a m)

theorem hid_apply (a m u : Fin 64) :
    hid v0 v2 v10 v12 (ix2 (row a m) u) = hiddenUnit (rr v10 a) (tt v12 a) (ww v0) (bb v2) m u := by
  unfold hid hiddenUnit
  rw [maximumf_apply, addf_apply, matmul_rows_apply, broadcastTo_1b_ab_apply, shapeCast_self, shapeCast_self]
  refine congrArg₂ max (congrArg (· + v2 (ix2 (0 : Fin 1) u)) (Finset.sum_congr rfl fun k _ => ?_)) rfl
  rw [prods_apply]

theorem lift_rows (n : Fin 4096) (u : Fin 64) : reduces_S4096x64_S4096.lift (ix1 n) u = ix2 n u :=
  funext fun a => Fin.ext (by match a with | ⟨0, _⟩ => rfl | ⟨1, _⟩ => rfl)

theorem logit_apply (a m : Fin 64) :
    logit v0 v2 v4 v10 v12 (ix1 (row a m)) = ∑ u : Fin 64, hiddenUnit (rr v10 a) (tt v12 a) (ww v0) (bb v2) m u * hh v4 u := by
  unfold logit
  refine (Ideal.multiReduction_add_single _ 0x00000000#32 reduces_S4096x64_S4096 (.inl rfl) rfl (ix1 (row a m))).trans ?_
  refine Finset.sum_congr rfl fun (u : Fin 64) _ => ?_
  rw [lift_rows, mulf_apply, hid_apply, broadcastTo_1b_ab_apply, shapeCast_self]

theorem wts_apply (a m : Fin 64) :
    wts v0 v2 v4 v10 v12 v14 (ix2 a m) = weight (rr v10 a) (tt v12 a) (ww v0) (bb v2) (hh v4) (mm v14 a) m := by
  unfold wts weight
  rw [mulf_apply, Cert.LibRows.shapeCast_n1_ab_apply _ _ a m (row a m) (row_val a m)]
  show v14 (ix2 a m) * Ideal.exp (shapeCast S4096x1 (logit v0 v2 v4 v10 v12) shapeCasts_S4096_S4096x1 (ix2 (row a m) (0 : Fin 1))) = _
  rw [Cert.Lib.Columns.column_of_vector_apply, logit_apply]

theorem lift_cols (a m : Fin 64) : reduces_S64x64_S64.lift (ix1 a) m = ix2 a m :=
  funext fun d => Fin.ext (by match d with | ⟨0, _⟩ => rfl | ⟨1, _⟩ => rfl)

theorem nrm_apply (a m : Fin 64) :
    nrm v0 v2 v4 v10 v12 v14 (ix2 a m)
      = Ideal.div (weight (rr v10 a) (tt v12 a) (ww v0) (bb v2) (hh v4) (mm v14 a) m)
          (∑ n : Fin 64, weight (rr v10 a) (tt v12 a) (ww v0) (bb v2) (hh v4) (mm v14 a) n) := by
  unfold nrm
  rw [divf_apply, wts_apply, Cert.LibRows.broadcastTo_a1_ab_apply, Cert.Lib.Columns.column_of_vector_apply]
  refine congrArg (Ideal.div _) ?_
  refine (Ideal.multiReduction_add_single _ 0x00000000#32 reduces_S64x64_S64 (.inl rfl) rfl (ix1 a)).trans ?_
  refine Finset.sum_congr rfl fun (n : Fin 64) _ => ?_
  rw [lift_cols, wts_apply]

theorem lift_mid (a m i : Fin 64) : reduces_S64x64x64_S64x64.lift (ix2 a i) m = ix3 a m i :=
  funext fun d => Fin.ext (by match d with | ⟨0, _⟩ => rfl | ⟨1, _⟩ => rfl | ⟨2, _⟩ => rfl)

/-- ENTRY (a, i) OF THE STORED VALUE is the row attention of chunk row a at feature i. -/
theorem pay_apply (a i : Fin 64) :
    k0_pay1 (F := Ideal) v0 v2 v4 v10 v12 v14 v16 (ix2 a i)
      = rowOut (fun j => v16 (ix2 a j)) (mm v14 a) (rr v10 a) (tt v12 a) (ww v0) (bb v2) (hh v4) i := by
  rw [pay_eq]
  unfold rowOut
  rw [addf_apply]
  refine congrArg (v16 (ix2 a i) + ·) ?_
  refine (Ideal.multiReduction_add_single _ 0x00000000#32 reduces_S64x64x64_S64x64 (.inl rfl) rfl (ix2 a i)).trans ?_
  refine Finset.sum_congr rfl fun (m : Fin 64) _ => ?_
  rw [lift_mid, mulf_apply, Cert.LibGroupScale.broadcastTo_ab1_abc_apply, Cert.LibGroupScale.shapeCast_ab_ab1_apply, nrm_apply]

end Cert.KernelIdeal.Chunk

end
-- ==== Proof.RowCongr.lean ====
/-
  The row attention depends on its data only through their values: equal data entry by entry give equal results.
-/
import proofs.«159820_j21457656611238_2_alg».proof.Proof.RowAttention

noncomputable section

namespace Cert.RowAttention

/-- Row data that agree entry by entry give the same row attention. -/
theorem rowOut_congr {item item' mask mask' : Fin 64 → EReal} {r r' t t' W W' : Fin 64 → Fin 64 → EReal}
    {bias bias' hv hv' : Fin 64 → EReal}
    (h0 : ∀ j, item j = item' j) (h3 : ∀ m, mask m = mask' m) (h1 : ∀ m k, r m k = r' m k) (h2 : ∀ m k, t m k = t' m k)
    (h4 : ∀ u k, W u k = W' u k) (h5 : ∀ u, bias u = bias' u) (h6 : ∀ u, hv u = hv' u) (i : Fin 64) :
    rowOut item mask r t W bias hv i = rowOut item' mask' r' t' W' bias' hv' i := by
  obtain rfl : item = item' := funext h0
  obtain rfl : mask = mask' := funext h3
  obtain rfl : r = r' := funext fun m => funext (h1 m)
  obtain rfl : t = t' := funext fun m => funext (h2 m)
  obtain rfl : W = W' := funext fun u => funext (h4 u)
  obtain rfl : bias = bias' := funext h5
  obtain rfl : hv = hv' := funext h6
  rfl

end Cert.RowAttention

end
-- ==== Proof.BlockPieces.lean ====
/-
  What the kernel's body leaves in its output block, read at an entry.

  The body runs four times over a block of 256 rows; trip k loads rows 64 k .. 64 k + 63 of the block's r, t, mask and
  item and stores, at the same rows of the output block, the value computed from them. So the output block is written
  as four pieces, and every piece is the restriction, to its 64 rows, of ONE function of the block's entry (a, i): the row
  attention of block row a at feature i, taken from row a of the block's inputs. The pieces cover the block; hence the
  block holds that function everywhere.
-/
import proofs.«159820_j21457656611238_2_alg».proof.Proof.Gen.KernelIdeal.Frame
import proofs.«159820_j21457656611238_2_alg».proof.Proof.ChunkPayload
import proofs.«159820_j21457656611238_2_alg».proof.Proof.RowCongr
import Idealize.ShloMosaic.Lib.Pipeline.Value

set_option maxRecDepth 16384

noncomputable section

namespace Cert.KernelIdeal.Block

open Cert.KernelIdeal Cert.KernelIdeal.Gen Cert.RowAttention
open Idealize.ShloMosaic Idealize.ShloMosaic.TcCoe Idealize.ShloMosaic.ValueIdx
open Idealize.SL Idealize.SL.Sem

/-! ## The pieces of the loop, for any float values -/

section Pieces

variable {F : FTy → Type} [FloatOps F]

/-- Trip k writes ONE piece: at rows 64 k .. 64 k + 63 of the output block, the stored value of the loads at those rows. -/
theorem trip_piece (𝒱 : Variants) (c : Dev nD) (bd : Option 𝒱.V) (i : grid0.Coords) (arg1 : Memref sig .tc .vmem S256x64 .f32) (harg1 : arg1.IsWhole) (arg2 : Memref sig .tc .vmem S256x64x64 .f32) (harg2 : arg2.IsWhole) (arg3 : Memref sig .tc .vmem S256x64x64 .f32) (harg3 : arg3.IsWhole) (arg4 : Memref sig .tc .vmem S256x64 .f32) (harg4 : arg4.IsWhole) (arg5 : Memref sig .tc .vmem S64x64 .bf16) (harg5 : arg5.IsWhole) (arg6 : Memref sig .tc .vmem S1x64 .f32) (harg6 : arg6.IsWhole) (arg7 : Memref sig .tc .vmem S1x64 .f32) (harg7 : arg7.IsWhole) (arg8 : Memref sig .tc .vmem S256x64 .f32) (harg8 : arg8.IsWhole)
    (v0 : Vec F S64x64 .bf16) (v2 : Vec F S1x64 .f32) (v4 : Vec F S1x64 .f32)
    (X_arg1 : BufTy.Contents (Elt F) arg1.view.ty) (X_arg2 : BufTy.Contents (Elt F) arg2.view.ty)
    (X_arg3 : BufTy.Contents (Elt F) arg3.view.ty) (X_arg4 : BufTy.Contents (Elt F) arg4.view.ty) (k : Fin k0_t1_loop.trips) :
    tripL_k0_t1 (F := F) 𝒱 c bd i arg1 harg1 arg2 harg2 arg3 harg3 arg4 harg4 arg5 harg5 arg6 harg6 arg7 harg7 arg8 harg8 v0 v2 v4 X_arg1 X_arg2 X_arg3 X_arg4 k
      = [⟨Rect.unit (s := S256x64) (k0_off2 k) S64x64.size (k0_off2_inb k),
          k0_pay1 v0 v2 v4
            (View.readAt (Elt F) arg2.view (Rect.unit (s := S256x64x64) (k0_off1 k) S64x64x64.size (k0_off1_inb k)).toLoadRect X_arg2)
            (View.readAt (Elt F) arg3.view (Rect.unit (s := S256x64x64) (k0_off1 k) S64x64x64.size (k0_off1_inb k)).toLoadRect X_arg3)
            (View.readAt (Elt F) arg4.view (Rect.unit (s := S256x64) (k0_off2 k) S64x64.size (k0_off2_inb k)).toLoadRect X_arg4)
            (View.readAt (Elt F) arg1.view (Rect.unit (s := S256x64) (k0_off2 k) S64x64.size (k0_off2_inb k)).toLoadRect X_arg1)⟩] := by
  unfold tripL_k0_t1 trip_k0_t1
  rfl

/-- Every piece written before trip n is a piece of one of the trips. -/
theorem mem_pieces (𝒱 : Variants) (c : Dev nD) (bd : Option 𝒱.V) (i : grid0.Coords) (arg1 : Memref sig .tc .vmem S256x64 .f32) (harg1 : arg1.IsWhole) (arg2 : Memref sig .tc .vmem S256x64x64 .f32) (harg2 : arg2.IsWhole) (arg3 : Memref sig .tc .vmem S256x64x64 .f32) (harg3 : arg3.IsWhole) (arg4 : Memref sig .tc .vmem S256x64 .f32) (harg4 : arg4.IsWhole) (arg5 : Memref sig .tc .vmem S64x64 .bf16) (harg5 : arg5.IsWhole) (arg6 : Memref sig .tc .vmem S1x64 .f32) (harg6 : arg6.IsWhole) (arg7 : Memref sig .tc .vmem S1x64 .f32) (harg7 : arg7.IsWhole) (arg8 : Memref sig .tc .vmem S256x64 .f32) (harg8 : arg8.IsWhole)
    (v0 : Vec F S64x64 .bf16) (v2 : Vec F S1x64 .f32) (v4 : Vec F S1x64 .f32)
    (X_arg1 : BufTy.Contents (Elt F) arg1.view.ty) (X_arg2 : BufTy.Contents (Elt F) arg2.view.ty)
    (X_arg3 : BufTy.Contents (Elt F) arg3.view.ty) (X_arg4 : BufTy.Contents (Elt F) arg4.view.ty)
    (p : View.Piece (Elt F) S256x64 .f32) :
    ∀ n : ℕ, p ∈ pb_k0_t1 (F := F) 𝒱 c bd i arg1 harg1 arg2 harg2 arg3 harg3 arg4 harg4 arg5 harg5 arg6 harg6 arg7 harg7 arg8 harg8 v0 v2 v4 X_arg1 X_arg2 X_arg3 X_arg4 n →
      ∃ k : Fin k0_t1_loop.trips, p ∈ tripL_k0_t1 (F := F) 𝒱 c bd i arg1 harg1 arg2 harg2 arg3 harg3 arg4 harg4 arg5 harg5 arg6 harg6 arg7 harg7 arg8 harg8 v0 v2 v4 X_arg1 X_arg2 X_arg3 X_arg4 k
  | 0, h => by
    rw [pb_k0_t1.eq_1] at h
    exact absurd h List.not_mem_nil
  | n + 1, h => by
    rw [pb_k0_t1.eq_2] at h
    unfold pb_k0_t1Step at h
    split at h
    · rename_i hn
      rcases List.mem_append.mp h with h | h
      · exact ⟨⟨n, hn⟩, h⟩
      · exact mem_pieces 𝒱 c bd i arg1 harg1 arg2 harg2 arg3 harg3 arg4 harg4 arg5 harg5 arg6 harg6 arg7 harg7 arg8 harg8 v0 v2 v4 X_arg1 X_arg2 X_arg3 X_arg4 p n h
    · exact mem_pieces 𝒱 c bd i arg1 harg1 arg2 harg2 arg3 harg3 arg4 harg4 arg5 harg5 arg6 harg6 arg7 harg7 arg8 harg8 v0 v2 v4 X_arg1 X_arg2 X_arg3 X_arg4 p n h

end Pieces

/-! ## The block's function -/

/-- Entry (a, i) of the output block as a function of the block's inputs: the row attention of block row a. The weight
    arrives with its axes exchanged; bias and h as rows. -/
def blkOut (x0 : FVec Ideal S256x64 .f32) (x1 x2 : FVec Ideal S256x64x64 .f32) (x3 : FVec Ideal S256x64 .f32)
    (x4 : FVec Ideal S64x64 .bf16) (x5 x6 : FVec Ideal S1x64 .f32) (a : Fin 256) (i : Fin 64) : EReal :=
  rowOut (fun j => x0 (ix2 a j)) (fun m => x3 (ix2 a m)) (fun m k => x1 (ix3 a m k)) (fun m k => x2 (ix3 a m k))
    (fun u k => x4 (ix2 k u)) (fun u => x5 (ix2 (0 : Fin 1) u)) (fun u => x6 (ix2 (0 : Fin 1) u)) i

/-- Row a of chunk k is row 64 k + a of the block. -/
def blkRow (k : Fin k0_t1_loop.trips) (a : Fin 64) : Fin 256 :=
  ⟨64 * k.val + a.val, by have := k.isLt; have := k0_t1_abs.2.1; have := a.isLt; omega⟩

theorem emb2 (k : Fin k0_t1_loop.trips) (a j : Fin 64) :
    (Rect.unit (s := S256x64) (k0_off2 k) S64x64.size (k0_off2_inb k)).emb (ix2 a j) = ix2 (blkRow k a) j :=
  funext fun d => Fin.ext (by
    rw [Rect.emb_apply]
    simp only [Rect.off_unit, Rect.stride_unit, k0_off2_eq]
    match d with
    | ⟨0, _⟩ => show 64 * k.val + 1 * a.val = 64 * k.val + a.val; omega
    | ⟨1, _⟩ => show 0 + 1 * j.val = j.val; omega)

theorem emb3 (k : Fin k0_t1_loop.trips) (a m j : Fin 64) :
    (Rect.unit (s := S256x64x64) (k0_off1 k) S64x64x64.size (k0_off1_inb k)).emb (ix3 a m j) = ix3 (blkRow k a) m j :=
  funext fun d => Fin.ext (by
    rw [Rect.emb_apply]
    simp only [Rect.off_unit, Rect.stride_unit, k0_off1_eq]
    match d with
    | ⟨0, _⟩ => show 64 * k.val + 1 * a.val = 64 * k.val + a.val; omega
    | ⟨1, _⟩ => show 0 + 1 * m.val = m.val; omega
    | ⟨2, _⟩ => show 0 + 1 * j.val = j.val; omega)

/-- The stored value of the loads at chunk k, at (a, i), is the block's function at block row 64 k + a. -/
theorem chunk_apply (x0 : FVec Ideal S256x64 .f32) (x1 x2 : FVec Ideal S256x64x64 .f32) (x3 : FVec Ideal S256x64 .f32)
    (x4 : FVec Ideal S64x64 .bf16) (x5 x6 : FVec Ideal S1x64 .f32) (k : Fin k0_t1_loop.trips) (a i : Fin 64) :
    k0_pay1 (F := Ideal) x4 x5 x6
        (View.ld x1 (Rect.unit (s := S256x64x64) (k0_off1 k) S64x64x64.size (k0_off1_inb k)))
        (View.ld x2 (Rect.unit (s := S256x64x64) (k0_off1 k) S64x64x64.size (k0_off1_inb k)))
        (View.ld x3 (Rect.unit (s := S256x64) (k0_off2 k) S64x64.size (k0_off2_inb k)))
        (View.ld x0 (Rect.unit (s := S256x64) (k0_off2 k) S64x64.size (k0_off2_inb k))) (ix2 a i)
      = blkOut x0 x1 x2 x3 x4 x5 x6 (blkRow k a) i := by
  rw [Chunk.pay_apply]
  unfold blkOut
  exact rowOut_congr (fun j => congrArg x0 (emb2 k a j)) (fun m => congrArg x3 (emb2 k a m))
    (fun m j => congrArg x1 (emb3 k a m j)) (fun m j => congrArg x2 (emb3 k a m j))
    (fun _ _ => rfl) (fun _ => rfl) (fun _ => rfl) i

theorem hz2 : (![0, 0] : Fin 2 → Nat) = fun _ => 0 :=
  funext fun d => by match d with | ⟨0, _⟩ => rfl | ⟨1, _⟩ => rfl

/-! ## The output block -/

/-- THE OUTPUT BLOCK the body leaves, at entry (a, j), is the row attention of block row a at feature j. -/
theorem out_block (c : Dev nD) (i : grid0.Coords) (arg1 : Memref sig .tc .vmem S256x64 .f32) (harg1 : arg1.IsWhole) (arg2 : Memref sig .tc .vmem S256x64x64 .f32) (harg2 : arg2.IsWhole) (arg3 : Memref sig .tc .vmem S256x64x64 .f32) (harg3 : arg3.IsWhole) (arg4 : Memref sig .tc .vmem S256x64 .f32) (harg4 : arg4.IsWhole) (arg5 : Memref sig .tc .vmem S64x64 .bf16) (harg5 : arg5.IsWhole) (arg6 : Memref sig .tc .vmem S1x64 .f32) (harg6 : arg6.IsWhole) (arg7 : Memref sig .tc .vmem S1x64 .f32) (harg7 : arg7.IsWhole) (arg8 : Memref sig .tc .vmem S256x64 .f32) (harg8 : arg8.IsWhole)
    (x0 : FVec Ideal S256x64 .f32) (x1 x2 : FVec Ideal S256x64x64 .f32) (x3 : FVec Ideal S256x64 .f32)
    (x4 : FVec Ideal S64x64 .bf16) (x5 x6 : FVec Ideal S1x64 .f32) (a : Fin 256) (j : Fin 64) :
    out0_A_7 (F := Ideal) c i arg1 harg1 arg2 harg2 arg3 harg3 arg4 harg4 arg5 harg5 arg6 harg6 arg7 harg7 arg8 harg8 x0 x1 x2 x3 x4 x5 x6 (ix2 a j) = blkOut x0 x1 x2 x3 x4 x5 x6 a j := by
  unfold out0_A_7
  rw [View.read_writes_eq_canon _ _ _ (cover0_A_7 (F := Ideal) c i arg1 harg1 arg2 harg2 arg3 harg3 arg4 harg4 arg5 harg5 arg6 harg6 arg7 harg7 arg8 harg8 x0 x1 x2 x3 x4 x5 x6)]
  refine View.canon_apply_of_pieces (fun y : S256x64.Idx => blkOut x0 x1 x2 x3 x4 x5 x6 (y 0) (y 1)) _ ?_ (ix2 a j)
    (cover0_A_7 (F := Ideal) c i arg1 harg1 arg2 harg2 arg3 harg3 arg4 harg4 arg5 harg5 arg6 harg6 arg7 harg7 arg8 harg8 x0 x1 x2 x3 x4 x5 x6 (ix2 a j))
  intro p hp x
  unfold kernelRun0_A at hp
  dsimp only at hp
  obtain ⟨k, hk⟩ := mem_pieces (F := Ideal) Variants.none c none i arg1 harg1 arg2 harg2 arg3 harg3 arg4 harg4 arg5 harg5 arg6 harg6 arg7 harg7 arg8 harg8 _ _ _ _ _ _ _ p _ hp
  rw [trip_piece] at hk
  obtain rfl := List.mem_singleton.mp hk
  obtain ⟨a', j', rfl⟩ : ∃ (a' j' : Fin 64), x = ix2 a' j' := ⟨x 0, x 1, eq_ix2 x⟩
  refine Eq.trans ?_ (congrArg (fun y : S256x64.Idx => blkOut x0 x1 x2 x3 x4 x5 x6 (y 0) (y 1)) (emb2 k a' j').symm)
  show k0_pay1 (F := Ideal) _ _ _ _ _ _ _ (ix2 a' j') = blkOut x0 x1 x2 x3 x4 x5 x6 (blkRow k a') j'
  simp only [View.readAt_eq_ld, harg1.read_unread, harg2.read_unread, harg3.read_unread, harg4.read_unread,
    harg5.read_unread, harg6.read_unread, harg7.read_unread]
  rw [View.ld_unit_zero (S := S64x64) hz2, View.ld_unit_zero (S := S1x64) hz2, View.ld_unit_zero (S := S1x64) hz2]
  exact chunk_apply x0 x1 x2 x3 x4 x5 x6 k a' j'

end Cert.KernelIdeal.Block

end
-- ==== Proof.BatchAttention.lean ====
/-
  The whole batch: one row attention per batch row.

  The batch has 8192 rows. Entry (b, i) of the result is the row attention of row b at feature i, taken from row b of
  item, mask, r and t, with the weight W read as (hidden unit, input feature), bias as a vector and h as a column.
-/
import proofs.«159820_j21457656611238_2_alg».proof.Proof.RowAttention
import Idealize.ShloMosaic.Lib.ValueIdx

noncomputable section

namespace Cert.BatchAttention

open Idealize.ShloMosaic Idealize.ShloMosaic.ValueIdx Cert.RowAttention

/-- Entry (b, i) of the batch result, from the seven argument arrays. -/
def entry (a0 : (⟨2, ![8192, 64]⟩ : Shape).Idx → EReal) (a1 a2 : (⟨3, ![8192, 64, 64]⟩ : Shape).Idx → EReal)
    (a3 : (⟨2, ![8192, 64]⟩ : Shape).Idx → EReal) (a4 : (⟨2, ![64, 64]⟩ : Shape).Idx → EReal)
    (a5 : (⟨1, ![64]⟩ : Shape).Idx → EReal) (a6 : (⟨2, ![64, 1]⟩ : Shape).Idx → EReal) (b : Fin 8192) (i : Fin 64) : EReal :=
  rowOut (fun j => a0 (ix2 b j)) (fun m => a3 (ix2 b m)) (fun m k => a1 (ix3 b m k)) (fun m k => a2 (ix3 b m k))
    (fun u k => a4 (ix2 u k)) (fun u => a5 (ix1 u)) (fun u => a6 (ix2 u (0 : Fin 1))) i

/-- The batch result as an array. -/
def G (a0 : (⟨2, ![8192, 64]⟩ : Shape).Idx → EReal) (a1 a2 : (⟨3, ![8192, 64, 64]⟩ : Shape).Idx → EReal)
    (a3 : (⟨2, ![8192, 64]⟩ : Shape).Idx → EReal) (a4 : (⟨2, ![64, 64]⟩ : Shape).Idx → EReal)
    (a5 : (⟨1, ![64]⟩ : Shape).Idx → EReal) (a6 : (⟨2, ![64, 1]⟩ : Shape).Idx → EReal) :
    (⟨2, ![8192, 64]⟩ : Shape).Idx → EReal :=
  fun y => entry a0 a1 a2 a3 a4 a5 a6 (y 0) (y 1)

theorem G_apply (a0 : (⟨2, ![8192, 64]⟩ : Shape).Idx → EReal) (a1 a2 : (⟨3, ![8192, 64, 64]⟩ : Shape).Idx → EReal)
    (a3 : (⟨2, ![8192, 64]⟩ : Shape).Idx → EReal) (a4 : (⟨2, ![64, 64]⟩ : Shape).Idx → EReal)
    (a5 : (⟨1, ![64]⟩ : Shape).Idx → EReal) (a6 : (⟨2, ![64, 1]⟩ : Shape).Idx → EReal) (b : Fin 8192) (i : Fin 64) :
    G a0 a1 a2 a3 a4 a5 a6 (ix2 b i) = entry a0 a1 a2 a3 a4 a5 a6 b i := rfl

end Cert.BatchAttention

end
-- ==== Proof.LibTurn.lean ====
/-
  A column turned into a row: a general lemma, for any element type and any length.

  An A x 1 column and the 1 x A row with the same entries are the same data in row-major order: entry (0, a) of the row is
  entry (a, 0) of the column.
-/
import Idealize.ShloMosaic.Lib.Pipeline.Value
import Idealize.ShloMosaic.Lib.ValueIdx

noncomputable section

namespace Cert.LibTurn

open Idealize.ShloMosaic Idealize.ShloMosaic.ValueIdx

variable {α : Type}

/-- An A x 1 column reshaped into a 1 x A row reads, at (u, a), the column's entry (a, 0). -/
theorem shapeCast_a1_1a_apply {A : ℕ} (x : (⟨2, ![A, 1]⟩ : Shape).Idx → α)
    (h : (⟨2, ![A, 1]⟩ : Shape).ShapeCasts ⟨2, ![1, A]⟩) (u : Fin 1) (a : Fin A) :
    shapeCast ⟨2, ![1, A]⟩ x h (ix2 u a) = x (ix2 a (0 : Fin 1)) :=
  shapeCast_apply x h _ _ (by
    have hu : u.val = 0 := by omega
    rw [Shape.rowMajor_val_two, Shape.rowMajor_val_two]
    show a.val * 1 + 0 = u.val * A + a.val
    rw [hu, Nat.zero_mul, Nat.zero_add, Nat.mul_one, Nat.add_zero])

end Cert.LibTurn

end
-- ==== Proof.KernelArray.lean ====
/-
  The kernel's result array after the run.

  The grid has 32 points; point t works on rows 256 t .. 256 t + 255 of item, r, t and the mask, on the whole transposed
  weight and on bias and h laid out as rows, and writes back rows 256 t .. 256 t + 255 of the result. The transposed
  weight at (k, u) is W at (u, k); the bias row at (0, u) is bias at u; the h row at (0, u) is h at (u, 0). So what point
  t writes back is block t of ONE array: the batch attention of the seven arguments. The 32 blocks cover the 8192 rows,
  hence the result array after the run is that array.
-/
import proofs.«159820_j21457656611238_2_alg».proof.Proof.Gen.KernelIdeal.Value
import proofs.«159820_j21457656611238_2_alg».proof.Proof.BlockPieces
import proofs.«159820_j21457656611238_2_alg».proof.Proof.BatchAttention
import proofs.«159820_j21457656611238_2_alg».proof.Proof.LibTurn
import Idealize.ShloMosaic.Lib.ValueLayout
import Idealize.ShloMosaic.Lib.StableHlo.Run
import Idealize.ShloMosaic.Lib.Pipeline.Value

set_option maxRecDepth 16384

noncomputable section

namespace Cert.KernelIdeal.ArrayValue

open Cert.KernelIdeal Cert.KernelIdeal.Gen Cert.RowAttention Cert.BatchAttention
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## Where the blocks sit -/

/-- The index maps, decided over the 32 points: the four streamed inputs and the output are at block row t, the three
    resident inputs at the one block they have. -/
theorem idx_facts : ∀ t : Fin cfg0.N,
    win0_0.index t (0 : Fin 2) = t.val ∧ win0_0.index t (1 : Fin 2) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-! ## What the host operations before the region wrote -/

theorem V_v1 (c : Dev nD) : (V m c main_v1 : S64x64.Idx → EReal)
    = truncf (F := Ideal) .bf16 (transpose S64x64 [1, 0] (m ((c : Thread nD τ).loc main_arg4)) transposes_S64x64_S64x64_1_0) bitsLt_bf16_f32 := by
  dsimp only [V, hostOps0]; after_results <;> rfl

theorem V_v2 (c : Dev nD) : (V m c main_v2 : S1x64.Idx → EReal)
    = shapeCast S1x64 (m ((c : Thread nD τ).loc main_arg5)) shapeCasts_S64_S1x64 := by
  dsimp only [V, hostOps0]; after_results <;> rfl

theorem V_v3 (c : Dev nD) : (V m c main_v3 : S1x64.Idx → EReal)
    = shapeCast S1x64 (m ((c : Thread nD τ).loc main_arg6)) shapeCasts_S64x1_S1x64 := by
  dsimp only [V, hostOps0]; after_results <;> rfl

/-! ## Each input block, read where the point's rows are -/

theorem read0 (c : Dev nD) (t : Fin cfg0.N) (a : Fin 256) (j : Fin 64) (b : Fin 8192) (hb : b.val = 256 * t.val + a.val) :
    iblk m c 0 t (ix2 a j) = (m ((c : Thread nD τ).loc main_arg0)) (ix2 b j) := by
  obtain ⟨e0, e1, -⟩ := idx_facts t
  show V m c main_arg0 (((cfg0.win 0).blk t).view.emb (ix2 a j)) = _
  rw [V_main_arg0]
  refine congrArg _ (funext fun d => Fin.ext ?_)
  match d with
  | ⟨0, _⟩ => show win0_0.index t (0 : Fin 2) * 256 + 1 * a.val = b.val; omega
  | ⟨1, _⟩ => show win0_0.index t (1 : Fin 2) * 64 + 1 * j.val = j.val; omega

theorem read1 (c : Dev nD) (t : Fin cfg0.N) (a : Fin 256) (n k : Fin 64) (b : Fin 8192) (hb : b.val = 256 * t.val + a.val) :
    iblk m c 1 t (ix3 a n k) = (m ((c : Thread nD τ).loc main_arg1)) (ix3 b n k) := by
  obtain ⟨-, -, e0, e1, e2, -⟩ := idx_facts t
  show V m c main_arg1 (((cfg0.win 1).blk t).view.emb (ix3 a n k)) = _
  rw [V_main_arg1]
  refine congrArg _ (funext fun d => Fin.ext ?_)
  match d with
  | ⟨0, _⟩ => show win0_1.index t (0 : Fin 3) * 256 + 1 * a.val = b.val; omega
  | ⟨1, _⟩ => show win0_1.index t (1 : Fin 3) * 64 + 1 * n.val = n.val; omega
  | ⟨2, _⟩ => show win0_1.index t (2 : Fin 3) * 64 + 1 * k.val = k.val; omega

theorem read2 (c : Dev nD) (t : Fin cfg0.N) (a : Fin 256) (n k : Fin 64) (b : Fin 8192) (hb : b.val = 256 * t.val + a.val) :
    iblk m c 2 t (ix3 a n k) = (m ((c : Thread nD τ).loc main_arg2)) (ix3 b n k) := by
  obtain ⟨-, -, -, -, -, e0, e1, e2, -⟩ := idx_facts t
  show V m c main_arg2 (((cfg0.win 2).blk t).view.emb (ix3 a n k)) = _
  rw [V_main_arg2]
  refine congrArg _ (funext fun d => Fin.ext ?_)
  match d with
  | ⟨0, _⟩ => show win0_2.index t (0 : Fin 3) * 256 + 1 * a.val = b.val; omega
  | ⟨1, _⟩ => show win0_2.index t (1 : Fin 3) * 64 + 1 * n.val = n.val; omega
  | ⟨2, _⟩ => show win0_2.index t (2 : Fin 3) * 64 + 1 * k.val = k.val; omega

theorem read3 (c : Dev nD) (t : Fin cfg0.N) (a : Fin 256) (n : Fin 64) (b : Fin 8192) (hb : b.val = 256 * t.val + a.val) :
    iblk m c 3 t (ix2 a n) = (m ((c : Thread nD τ).loc main_arg3)) (ix2 b n) := by
  obtain ⟨-, -, -, -, -, -, -, -, e0, e1, -⟩ := idx_facts t
  show V m c main_arg3 (((cfg0.win 3).blk t).view.emb (ix2 a n)) = _
  rw [V_main_arg3]
  refine congrArg _ (funext fun d => Fin.ext ?_)
  match d with
  | ⟨0, _⟩ => show win0_3.index t (0 : Fin 2) * 256 + 1 * a.val = b.val; omega
  | ⟨1, _⟩ => show win0_3.index t (1 : Fin 2) * 64 + 1 * n.val = n.val; omega

/-- The resident weight block at (k, u) is W at (u, k): the host transposed it (and its change of format is the identity). -/
theorem read4 (c : Dev nD) (t : Fin cfg0.N) (k u : Fin 64) :
    iblk m c 4 t (ix2 k u) = (m ((c : Thread nD τ).loc main_arg4)) (ix2 u k) := by
  obtain ⟨-, -, -, -, -, -, -, -, -, -, e0, e1, -⟩ := idx_facts t
  show V m c main_v1 (((cfg0.win 4).blk t).view.emb (ix2 k u)) = _
  have e : ((cfg0.win 4).blk t).view.emb (ix2 k u) = ix2 k u := funext fun d => Fin.ext (by
    match d with
    | ⟨0, _⟩ => show win0_4.index t (0 : Fin 2) * 64 + 1 * k.val = k.val; omega
    | ⟨1, _⟩ => show win0_4.index t (1 : Fin 2) * 64 + 1 * u.val = u.val; omega)
  rw [e, V_v1]
  exact transpose_ix2_apply _ _ k u

/-- The resident bias row at (0, u) is bias at u. -/
theorem read5 (c : Dev nD) (t : Fin cfg0.N) (u : Fin 64) :
    iblk m c 5 t (ix2 (0 : Fin 1) u) = (m ((c : Thread nD τ).loc main_arg5)) (ix1 u) := by
  obtain ⟨-, -, -, -, -, -, -, -, -, -, -, -, e0, e1, -⟩ := idx_facts t
  show V m c main_v2 (((cfg0.win 5).blk t).view.emb (ix2 (0 : Fin 1) u)) = _
  have e : ((cfg0.win 5).blk t).view.emb (ix2 (0 : Fin 1) u) = ix2 (0 : Fin 1) u := funext fun d => Fin.ext (by
    match d with
    | ⟨0, _⟩ => show win0_5.index t (0 : Fin 2) * 1 + 1 * 0 = 0; omega
    | ⟨1, _⟩ => show win0_5.index t (1 : Fin 2) * 64 + 1 * u.val = u.val; omega)
  rw [e, V_v2]
  exact shapeCast_a_1a_apply _ _ (0 : Fin 1) u

/-- The resident h row at (0, u) is h at (u, 0). -/
theorem read6 (c : Dev nD) (t : Fin cfg0.N) (u : Fin 64) :
    iblk m c 6 t (ix2 (0 : Fin 1) u) = (m ((c : Thread nD τ).loc main_arg6)) (ix2 u (0 : Fin 1)) := by
  obtain ⟨-, -, -, -, -, -, -, -, -, -, -, -, -, -, e0, e1, -⟩ := idx_facts t
  show V m c main_v3 (((cfg0.win 6).blk t).view.emb (ix2 (0 : Fin 1) u)) = _
  have e : ((cfg0.win 6).blk t).view.emb (ix2 (0 : Fin 1) u) = ix2 (0 : Fin 1) u := funext fun d => Fin.ext (by
    match d with
    | ⟨0, _⟩ => show win0_6.index t (0 : Fin 2) * 1 + 1 * 0 = 0; omega
    | ⟨1, _⟩ => show win0_6.index t (1 : Fin 2) * 64 + 1 * u.val = u.val; omega)
  rw [e, V_v3]
  exact Cert.LibTurn.shapeCast_a1_1a_apply _ _ (0 : Fin 1) u

/-! ## What a point writes back -/

/-- WHAT POINT t WRITES BACK is block t of the batch attention of the seven arguments. -/
theorem flushed_eq (c : Dev nD) (t : Fin cfg0.N) :
    (dats m 0 c).flushed 7 t = ((cfg0.win 7).blk t).view.read (Elt Ideal) (G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) := by
  rw [Cert.KernelIdeal.Value.flushed7_A]
  show (fun y : S256x64.Idx => out0_A_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t) (iblk m c 4 t) (iblk m c 5 t) (iblk m c 6 t) y)
    = fun y : S256x64.Idx => G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (((cfg0.win 7).blk t).view.emb y)
  funext y
  obtain ⟨a, i, rfl⟩ : ∃ (a : Fin 256) (i : Fin 64), y = ix2 a i := ⟨y 0, y 1, eq_ix2 y⟩
  refine (Block.out_block c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t) (iblk m c 4 t) (iblk m c 5 t) (iblk m c 6 t) a i).trans ?_
  have ht : t.val < grid0.N := t.isLt
  rw [N_0] at ht
  obtain ⟨-, -, -, -, -, -, -, -, -, -, -, -, -, -, -, -, e0, e1⟩ := idx_facts t
  have hlt : 256 * t.val + a.val < 8192 := by have := a.isLt; omega
  have e7 : ((cfg0.win 7).blk t).view.emb (ix2 a i) = ix2 (⟨256 * t.val + a.val, hlt⟩ : Fin 8192) i := funext fun d => Fin.ext (by
    match d with
    | ⟨0, _⟩ => show win0_7.index t (0 : Fin 2) * 256 + 1 * a.val = 256 * t.val + a.val; omega
    | ⟨1, _⟩ => show win0_7.index t (1 : Fin 2) * 64 + 1 * i.val = i.val; omega)
  rw [e7, G_apply]
  unfold Block.blkOut entry
  exact rowOut_congr (fun j => read0 m c t a j _ rfl) (fun n => read3 m c t a n _ rfl) (fun n k => read1 m c t a n k _ rfl)
    (fun n k => read2 m c t a n k _ rfl) (fun u k => read4 m c t k u) (fun u => read5 m c t u) (fun u => read6 m c t u) i

/-! ## The array after the run -/

/-- An index of the result array is in point t's block iff each coordinate is in the block's range on its axis. -/
theorem mem_blk (t : Fin cfg0.N) (y : S8192x64.Idx) :
    y ∈ ((cfg0.win 7).blk t).view.set ↔ ∀ a : Fin 2, win0_7.index t a * S256x64.size a ≤ (y a).val ∧ (y a).val < win0_7.index t a * S256x64.size a + S256x64.size a := by
  show y ∈ ((View.whole main_v4).slice (win0_7.rect t)).set ↔ _
  rw [View.set_slice_whole, Rect.mem_set_unit]
  exact Iff.rfl

/-- Every entry of the result array is in the block of the point its row belongs to: row b is in block b / 256. -/
theorem cover (y : S8192x64.Idx) : ∃ t : Fin cfg0.N, (cfg0.win 7).flush t = true ∧ y ∈ ((cfg0.win 7).blk t).view.set := by
  have h0 : (y 0).val < 8192 := (y 0).isLt
  have h1 : (y 1).val < 64 := (y 1).isLt
  have hN : (y 0).val / 256 < grid0.N := by rw [N_0]; omega
  obtain ⟨-, -, -, -, -, -, -, -, -, -, -, -, -, -, -, -, e0, e1⟩ := idx_facts ⟨(y 0).val / 256, hN⟩
  refine ⟨⟨(y 0).val / 256, hN⟩, flush0_7 _, ?_⟩
  rw [mem_blk]
  intro a
  match a with
  | ⟨0, _⟩ =>
    show win0_7.index ⟨(y 0).val / 256, hN⟩ (0 : Fin 2) * 256 ≤ (y 0).val ∧ (y 0).val < win0_7.index ⟨(y 0).val / 256, hN⟩ (0 : Fin 2) * 256 + 256
    rw [e0]; show (y 0).val / 256 * 256 ≤ (y 0).val ∧ (y 0).val < (y 0).val / 256 * 256 + 256; omega
  | ⟨1, _⟩ =>
    show win0_7.index ⟨(y 0).val / 256, hN⟩ (1 : Fin 2) * 64 ≤ (y 1).val ∧ (y 1).val < win0_7.index ⟨(y 0).val / 256, hN⟩ (1 : Fin 2) * 64 + 64
    rw [e1]; omega

/-- THE RESULT ARRAY after the run is the batch attention of the seven arguments. -/
theorem final (c : Dev nD) : (dats m 0 c).arrAt 7 cfg0.N = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (dats m 0 c).arrAt_eq_of_cover 7 _ (fun t _ => flushed_eq m c t) cover

/-- The kernel's run: it terminates, the result array is the batch attention of the arguments, the arguments unchanged. -/
theorem run : θ_run defs (onTc (τ := τ) (main (F := Ideal))) ⟨m, fun _ => 0, ρ⟩ fun r => ∀ c : Dev nD,
      r.2.mem ((c : Thread nD τ).loc main_v4) = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Cert.KernelIdeal.Value.run_blocks m ρ)

end Cert.KernelIdeal.ArrayValue

end
-- ==== Proof.RefRow.lean ====
/-
  The reference's result, read at an entry.

  The reference computes, for the whole batch at once, the hidden units (a contraction of r * t with W over the input
  axis, plus bias, rectified), their combination with h (a contraction over the hidden axis), the exponential, the
  mask, the sum over the neighbours and the quotient by it, the product with t and the sum over the neighbours, and adds
  item. Read at batch row b these stages are the hidden units, the weights, the normalised weights and the result of the
  row attention of row b: the two sums the reference starts from zero are the plain sums.
-/
import proofs.«159820_j21457656611238_2_alg».proof.Proof.Gen.ReferenceIdeal.Read
import proofs.«159820_j21457656611238_2_alg».proof.Proof.RowAttention
import Idealize.ShloMosaic.Lib.ValueIdx
import Idealize.ShloMosaic.PureOps.Ideal.Laws

noncomputable section

namespace Cert.ReferenceIdeal.RefValue

open Cert.ReferenceIdeal Cert.ReferenceIdeal.Read Idealize.ShloMosaic Idealize.ShloMosaic.ValueIdx Cert.RowAttention

variable (x0 x3 : (⟨S8192x64, .f32⟩ : BufTy).Contents (Elt Ideal)) (x1 x2 : (⟨S8192x64x64, .f32⟩ : BufTy).Contents (Elt Ideal))
  (x4 : (⟨S64x64, .f32⟩ : BufTy).Contents (Elt Ideal)) (x5 : (⟨S64, .f32⟩ : BufTy).Contents (Elt Ideal))
  (x6 : (⟨S64x1, .f32⟩ : BufTy).Contents (Elt Ideal))

/-- Row b's data as the row attention takes it. -/
abbrev rr (b : Fin 8192) : Fin 64 → Fin 64 → EReal := fun m k => x1 (ix3 b m k)
abbrev tt (b : Fin 8192) : Fin 64 → Fin 64 → EReal := fun m k => x2 (ix3 b m k)
abbrev ww : Fin 64 → Fin 64 → EReal := fun u k => x4 (ix2 u k)
abbrev bb : Fin 64 → EReal := fun u => x5 (ix1 u)
abbrev hh : Fin 64 → EReal := fun u => x6 (ix2 u (0 : Fin 1))
abbrev mm (b : Fin 8192) : Fin 64 → EReal := fun m => x3 (ix2 b m)

/-- The rectified stage at (b, m, u) is hidden unit u of neighbour m of row b. -/
theorem hidden_apply (b : Fin 8192) (m u : Fin 64) :
    val_main_v5 (F := Ideal) x1 x2 x4 x5 (ix3 b m u) = hiddenUnit (rr x1 b) (tt x2 b) (ww x4) (bb x5) m u := by
  have e1 : ∀ k, lidx_main_v1 (ix3 b m u) k = ix3 b m k := fun k => funext fun a => Fin.ext (by
    match a with | ⟨0, _⟩ => rfl | ⟨1, _⟩ => rfl | ⟨2, _⟩ => rfl)
  have e2 : ∀ k, ridx_main_v1 (ix3 b m u) k = ix2 u k := fun k => funext fun a => Fin.ext (by
    match a with | ⟨0, _⟩ => rfl | ⟨1, _⟩ => rfl)
  have e3 : idx_main_v2 (idx_main_v3 (ix3 b m u)) = ix1 u := funext fun a => Fin.ext (by
    match a with | ⟨0, _⟩ => rfl)
  rw [val_main_v5_apply, val_main_v4_apply, val_main_v1_apply, val_main_v3_apply, val_main_v2_apply,
    val_main_call0_v0_apply, val_main_call0_cst_apply, e3]
  unfold hiddenUnit
  simp only [e1, e2, val_main_v0_apply, Ideal.mulf_def, Ideal.addf_def, Ideal.maximumf_def, Ideal.ofBits_def]

/-- The contraction with h at (b, m, 0) combines neighbour m's hidden units with h. -/
theorem logit_apply (b : Fin 8192) (m : Fin 64) :
    val_main_v6 (F := Ideal) x1 x2 x4 x5 x6 (ix3 b m (0 : Fin 1))
      = ∑ u : Fin 64, hiddenUnit (rr x1 b) (tt x2 b) (ww x4) (bb x5) m u * hh x6 u := by
  have e1 : ∀ u, lidx_main_v6 (ix3 b m (0 : Fin 1)) u = ix3 b m u := fun u => funext fun a => Fin.ext (by
    match a with | ⟨0, _⟩ => rfl | ⟨1, _⟩ => rfl | ⟨2, _⟩ => rfl)
  have e2 : ∀ u, ridx_main_v6 (ix3 b m (0 : Fin 1)) u = ix2 u (0 : Fin 1) := fun u => funext fun a => Fin.ext (by
    match a with | ⟨0, _⟩ => rfl | ⟨1, _⟩ => rfl)
  rw [val_main_v6_apply]
  refine Finset.sum_congr rfl fun u _ => ?_
  rw [e1, e2, hidden_apply]

/-- The masked exponential at (b, m, 0) is the weight of neighbour m of row b. -/
theorem weight_apply (b : Fin 8192) (m : Fin 64) :
    val_main_v9 (F := Ideal) x1 x2 x3 x4 x5 x6 (ix3 b m (0 : Fin 1))
      = weight (rr x1 b) (tt x2 b) (ww x4) (bb x5) (hh x6) (mm x3 b) m := by
  have e : idx_main_v8 (ix3 b m (0 : Fin 1)) = ix2 b m := funext fun a => Fin.ext (by
    match a with | ⟨0, _⟩ => rfl | ⟨1, _⟩ => rfl)
  rw [val_main_v9_apply, val_main_v8_apply, val_main_v7_apply, logit_apply, e]
  unfold weight
  simp only [Ideal.mulf_def, Ideal.hostUnary_exp_def]

/-- The quotient at (b, m, 0) is the weight of neighbour m over the sum of row b's weights. -/
theorem normalised_apply (b : Fin 8192) (m : Fin 64) :
    val_main_v13 (F := Ideal) x1 x2 x3 x4 x5 x6 (ix3 b m (0 : Fin 1))
      = Ideal.div (weight (rr x1 b) (tt x2 b) (ww x4) (bb x5) (hh x6) (mm x3 b) m)
          (∑ n : Fin 64, weight (rr x1 b) (tt x2 b) (ww x4) (bb x5) (hh x6) (mm x3 b) n) := by
  have e : ∀ n, idx_main_v10 (idx_main_v11 (idx_main_v12 (ix3 b m (0 : Fin 1)))) n = ix3 b n (0 : Fin 1) := fun n =>
    funext fun a => Fin.ext (by match a with | ⟨0, _⟩ => rfl | ⟨1, _⟩ => rfl | ⟨2, _⟩ => rfl)
  rw [val_main_v13_apply, weight_apply, val_main_v12_apply, val_main_v11_apply, val_main_v10_apply, val_main_cst_apply]
  simp only [e, weight_apply, Ideal.hostDivf_def, Ideal.ofBits_def, Ideal.ofBits_zero_f32, zero_add]

/-- ENTRY (b, i) OF THE REFERENCE'S RESULT is the row attention of row b at feature i. -/
theorem result_apply (b : Fin 8192) (i : Fin 64) :
    val_main_v17 (F := Ideal) x0 x1 x2 x3 x4 x5 x6 (ix2 b i)
      = rowOut (fun j => x0 (ix2 b j)) (mm x3 b) (rr x1 b) (tt x2 b) (ww x4) (bb x5) (hh x6) i := by
  have e1 : ∀ m, idx_main_v16 (ix2 b i) m = ix3 b m i := fun m => funext fun a => Fin.ext (by
    match a with | ⟨0, _⟩ => rfl | ⟨1, _⟩ => rfl | ⟨2, _⟩ => rfl)
  have e2 : ∀ m, idx_main_v14 (ix3 b m i) = ix3 b m (0 : Fin 1) := fun m => funext fun a => Fin.ext (by
    match a with | ⟨0, _⟩ => rfl | ⟨1, _⟩ => rfl | ⟨2, _⟩ => rfl)
  rw [val_main_v17_apply, val_main_v16_apply, val_main_cst_0_apply]
  unfold rowOut
  simp only [e1, e2, val_main_v15_apply, val_main_v14_apply, normalised_apply, Ideal.mulf_def, Ideal.addf_def,
    Ideal.ofBits_def, Ideal.ofBits_zero_f32, zero_add]

end Cert.ReferenceIdeal.RefValue

end
-- ==== Proof.RefArray.lean ====
/-
  The reference's result is the batch attention of its arguments: entry by entry, by the row reading of its stages.
-/
import proofs.«159820_j21457656611238_2_alg».proof.Proof.RefRow
import proofs.«159820_j21457656611238_2_alg».proof.Proof.BatchAttention

noncomputable section

namespace Cert.ReferenceIdeal.RefValue

open Cert.ReferenceIdeal Cert.ReferenceIdeal.Read Idealize.ShloMosaic Idealize.ShloMosaic.ValueIdx Cert.BatchAttention

/-- The reference's last stage, as an array, is the batch attention of the seven arguments. -/
theorem result_eq (x0 x3 : (⟨S8192x64, .f32⟩ : BufTy).Contents (Elt Ideal)) (x1 x2 : (⟨S8192x64x64, .f32⟩ : BufTy).Contents (Elt Ideal))
    (x4 : (⟨S64x64, .f32⟩ : BufTy).Contents (Elt Ideal)) (x5 : (⟨S64, .f32⟩ : BufTy).Contents (Elt Ideal))
    (x6 : (⟨S64x1, .f32⟩ : BufTy).Contents (Elt Ideal)) :
    val_main_v17 (F := Ideal) x0 x1 x2 x3 x4 x5 x6 = G x0 x1 x2 x3 x4 x5 x6 := by
  funext y
  obtain ⟨b, i, rfl⟩ : ∃ (b : Fin 8192) (i : Fin 64), y = ix2 b i := ⟨y 0, y 1, eq_ix2 y⟩
  rw [G_apply]
  exact result_apply x0 x3 x1 x2 x4 x5 x6 b i

end Cert.ReferenceIdeal.RefValue

end
-- ==== Proof.lean ====
/-
  Neighbour attention for a batch of 8192 rows: the kernel against its reference, over the extended reals.

  Each row has 64 neighbours with feature vectors r, t of 64 entries and a mask value. A neighbour's hidden units are
  the rectified affine image of r * t (weight W, bias), its weight is the mask value times the exponential of the hidden
  units combined with h, and the row's result is its item plus the neighbours' t averaged with the weights divided by
  their sum (Proof/RowAttention.lean; the batch in Proof/BatchAttention.lean).

  The reference computes this for the whole batch with two contractions and two sums over the neighbours; read at a
  batch row its stages are the row attention of that row, the sums it starts from zero being the plain sums
  (Proof/RefRow.lean, Proof/RefArray.lean, over the generated reading of its operations).

  The kernel works on 32 blocks of 256 rows, each in four chunks of 64 rows, with the weight transposed and bias and h
  laid out as rows by the host. One chunk's stored value, entry by entry, is the row attention of the chunk's row
  (Proof/ChunkPayload.lean: the products laid out as 4096 rows, a matrix product, two sums along an axis, the layout
  steps between them read at coordinates). The four chunks' stores are pieces of one function of the block's entry and
  cover the block (Proof/BlockPieces.lean); the 32 blocks are blocks of one array, the batch attention of the
  arguments, and cover it (Proof/KernelArray.lean). So both programs end with the same array. No finiteness of the
  inputs is used: both sides are the same expression of the arguments, entry by entry; the changes of float format are
  the identity on the extended reals.

  The three frame claims are the generated frame runs; the idealization rewrote nothing, so there is nothing to preserve.
-/
import proofs.«159820_j21457656611238_2_alg».proof.Defs
import proofs.«159820_j21457656611238_2_alg».proof.Proof.Gen.Kernel
import proofs.«159820_j21457656611238_2_alg».proof.Proof.Gen.Kernel.Frame
import proofs.«159820_j21457656611238_2_alg».proof.Proof.Gen.KernelIdeal
import proofs.«159820_j21457656611238_2_alg».proof.Proof.Gen.KernelIdeal.Frame
import proofs.«159820_j21457656611238_2_alg».proof.Proof.Gen.KernelIdeal.Value
import proofs.«159820_j21457656611238_2_alg».proof.Proof.Gen.ReferenceIdeal
import proofs.«159820_j21457656611238_2_alg».proof.Proof.Gen.ReferenceIdeal.Run
import proofs.«159820_j21457656611238_2_alg».proof.Proof.Gen.ReferenceIdeal.Read
import proofs.«159820_j21457656611238_2_alg».proof.Proof.Gen.Pre_finite_inputs
import proofs.«159820_j21457656611238_2_alg».proof.Proof.KernelArray
import proofs.«159820_j21457656611238_2_alg».proof.Proof.RefArray
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_k : Cert.frame_Kernel := fun m ρ _ => Cert.Kernel.Gen.frame m ρ

/-- The idealized kernel runs and leaves its arguments unchanged. -/
theorem frame_ki : Cert.frame_KernelIdeal := fun m ρ _ => Cert.KernelIdeal.Gen.frame m ρ

/-- The idealized reference runs and leaves its arguments unchanged: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the seven arguments both idealized programs end with the batch attention of those
    arguments in their result arrays. -/
theorem algebraic : Cert.algebraic_KernelIdeal_ReferenceIdeal := by
  intro m ρ m' ρ' _ hagree
  refine ⟨fun c => Cert.BatchAttention.G
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)),
    Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v17_eq _ _ _ _ _ _ _).trans ?_
  refine (Cert.ReferenceIdeal.RefValue.result_eq _ _ _ _ _ _ _).trans ?_
  rw [(hagree c).1, (hagree c).2.1, (hagree c).2.2.1, (hagree c).2.2.2.1, (hagree c).2.2.2.2.1, (hagree c).2.2.2.2.2.1,
    (hagree c).2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
